-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S75x441x64 : Shape := ⟨3, ![75, 441, 64]⟩
abbrev S1x5x5x441x64 : Shape := ⟨5, ![1, 5, 5, 441, 64]⟩
abbrev S5x5x441x64 : Shape := ⟨4, ![5, 5, 441, 64]⟩
abbrev S25x441x64 : Shape := ⟨3, ![25, 441, 64]⟩
abbrev S_ : Shape := ⟨0, ![]⟩
abbrev S75x441 : Shape := ⟨2, ![75, 441]⟩
abbrev S25x441 : Shape := ⟨2, ![25, 441]⟩

class Facts : Prop where
  shapeCasts_S1x5x5x441x64_S5x5x441x64 : S1x5x5x441x64.ShapeCasts S5x5x441x64
  shapeCasts_S5x5x441x64_S25x441x64 : S5x5x441x64.ShapeCasts S25x441x64
  bcast_S_S75x441x64 : S_.BroadcastsInDim S75x441x64 (![] : Fin 0 → Fin S75x441x64.rank)
  reducesTo_S75x441x64_S_d0_1_2 : S75x441x64.ReducesTo [0, 1, 2] S_
  h_S_ : 0 < S_.numel
  bcast_S_S1x5x5x441x64 : S_.BroadcastsInDim S1x5x5x441x64 (![] : Fin 0 → Fin S1x5x5x441x64.rank)
  reducesTo_S1x5x5x441x64_S_d0_1_2_3_4 : S1x5x5x441x64.ReducesTo [0, 1, 2, 3, 4] S_
  reducesTo_S75x441x64_S75x441_d2 : S75x441x64.ReducesTo [2] S75x441
  bcast_S_S75x441 : S_.BroadcastsInDim S75x441 (![] : Fin 0 → Fin S75x441.rank)
  reducesTo_S75x441_S_d0_1 : S75x441.ReducesTo [0, 1] S_
  reducesTo_S25x441x64_S25x441_d2 : S25x441x64.ReducesTo [2] S25x441
  bcast_S_S25x441 : S_.BroadcastsInDim S25x441 (![] : Fin 0 → Fin S25x441.rank)
  reducesTo_S25x441_S_d0_1 : S25x441.ReducesTo [0, 1] S_

variable [Facts]

def fn_part1 {F : FTy → Type} [FloatOps F] (main_v1 : FVec F S25x441x64 .f32) (main_v16 : IVec S_ 1) : IVec S_ 1 :=
  let main_v17 : FVec F S25x441x64 .f32 := mulf main_v1 main_v1
  let main_cst_5 : FVec F S_ .f32 := constant S_ .f32 0x00000000#32
  let main_v18 : FVec F S25x441 .f32 := (fun x v => Host.reduceAdd x v reducesTo_S25x441x64_S25x441_d2 h_S_) main_v17 main_cst_5
  let main_cst_6 : FVec F S_ .f32 := constant S_ .f32 0x00000000#32
  let main_v19 : FVec F S25x441 .f32 := broadcastInDim S25x441 ![] bcast_S_S25x441 main_cst_6
  let main_v20 : IVec S25x441 1 := cmpf .ogt main_v18 main_v19
  let main_c_7 : IVec S_ 1 := constantI S_ 1 1#1
  let main_v21 : IVec S_ 1 := (fun x v => Host.reduce IntOp.andi x v reducesTo_S25x441_S_d0_1 h_S_) main_v20 main_c_7
  let main_v22 : IVec S_ 1 := andi main_v16 main_v21
  main_v22

def fn {F : FTy → Type} [FloatOps F] (main_arg0 : FVec F S75x441x64 .f32) (main_arg1 : FVec F S1x5x5x441x64 .f32) : IVec S_ 1 :=
  let main_v0 : FVec F S5x5x441x64 .f32 := shapeCast S5x5x441x64 main_arg1 shapeCasts_S1x5x5x441x64_S5x5x441x64
  let main_v1 : FVec F S25x441x64 .f32 := shapeCast S25x441x64 main_v0 shapeCasts_S5x5x441x64_S25x441x64
  let main_v2 : FVec F S75x441x64 .f32 := Host.absf main_arg0
  let main_cst : FVec F S_ .f32 := constant S_ .f32 0x7F800000#32
  let main_v3 : FVec F S75x441x64 .f32 := broadcastInDim S75x441x64 ![] bcast_S_S75x441x64 main_cst
  let main_v4 : IVec S75x441x64 1 := cmpf .olt main_v2 main_v3
  let main_c : IVec S_ 1 := constantI S_ 1 1#1
  let main_v5 : IVec S_ 1 := (fun x v => Host.reduce IntOp.andi x v reducesTo_S75x441x64_S_d0_1_2 h_S_) main_v4 main_c
  let main_v6 : FVec F S1x5x5x441x64 .f32 := Host.absf main_arg1
  let main_cst_0 : FVec F S_ .f32 := constant S_ .f32 0x7F800000#32
  let main_v7 : FVec F S1x5x5x441x64 .f32 := broadcastInDim S1x5x5x441x64 ![] bcast_S_S1x5x5x441x64 main_cst_0
  let main_v8 : IVec S1x5x5x441x64 1 := cmpf .olt main_v6 main_v7
  let main_c_1 : IVec S_ 1 := constantI S_ 1 1#1
  let main_v9 : IVec S_ 1 := (fun x v => Host.reduce IntOp.andi x v reducesTo_S1x5x5x441x64_S_d0_1_2_3_4 h_S_) main_v8 main_c_1
  let main_v10 : IVec S_ 1 := andi main_v5 main_v9
  let main_v11 : FVec F S75x441x64 .f32 := mulf main_arg0 main_arg0
  let main_cst_2 : FVec F S_ .f32 := constant S_ .f32 0x00000000#32
  let main_v12 : FVec F S75x441 .f32 := (fun x v => Host.reduceAdd x v reducesTo_S75x441x64_S75x441_d2 h_S_) main_v11 main_cst_2
  let main_cst_3 : FVec F S_ .f32 := constant S_ .f32 0x00000000#32
  let main_v13 : FVec F S75x441 .f32 := broadcastInDim S75x441 ![] bcast_S_S75x441 main_cst_3
  let main_v14 : IVec S75x441 1 := cmpf .ogt main_v12 main_v13
  let main_c_4 : IVec S_ 1 := constantI S_ 1 1#1
  let main_v15 : IVec S_ 1 := (fun x v => Host.reduce IntOp.andi x v reducesTo_S75x441_S_d0_1 h_S_) main_v14 main_c_4
  let main_v16 : IVec S_ 1 := andi main_v10 main_v15
  fn_part1 (F := F) main_v1 main_v16
-- ==== Kernel.lean ====
abbrev S75x441x64 : Shape := ⟨3, ![75, 441, 64]⟩
abbrev S1x5x5x441x64 : Shape := ⟨5, ![1, 5, 5, 441, 64]⟩
abbrev S5x5x441x64 : Shape := ⟨4, ![5, 5, 441, 64]⟩
abbrev S25x441x64 : Shape := ⟨3, ![25, 441, 64]⟩
abbrev S_ : Shape := ⟨0, ![]⟩
abbrev S80x441x64 : Shape := ⟨3, ![80, 441, 64]⟩
abbrev S80x25 : Shape := ⟨2, ![80, 25]⟩
abbrev S16x441x64 : Shape := ⟨3, ![16, 441, 64]⟩
abbrev S16x25 : Shape := ⟨2, ![16, 25]⟩
abbrev S16x441 : Shape := ⟨2, ![16, 441]⟩
abbrev S16x441x1 : Shape := ⟨3, ![16, 441, 1]⟩
abbrev S16x64 : Shape := ⟨2, ![16, 64]⟩
abbrev S25x441 : Shape := ⟨2, ![25, 441]⟩
abbrev S25x441x1 : Shape := ⟨3, ![25, 441, 1]⟩
abbrev S25x64 : Shape := ⟨2, ![25, 64]⟩
abbrev S64x25 : Shape := ⟨2, ![64, 25]⟩
abbrev S75x25 : Shape := ⟨2, ![75, 25]⟩

abbrev nBuf : Space → Nat
  | .hbm => 9
  | .vmem => 5
  | .smem => 0
  | _ => 0

abbrev bufTy : (tb : Table) → Fin (tcTables nBuf tb) → BufTy
  | .hbm, ⟨0, _⟩ => ⟨S75x441x64, .f32⟩
  | .hbm, ⟨1, _⟩ => ⟨S1x5x5x441x64, .f32⟩
  | .hbm, ⟨2, _⟩ => ⟨S5x5x441x64, .f32⟩
  | .hbm, ⟨3, _⟩ => ⟨S25x441x64, .f32⟩
  | .hbm, ⟨4, _⟩ => ⟨S_, .f32⟩
  | .hbm, ⟨5, _⟩ => ⟨S_, .f32⟩
  | .hbm, ⟨6, _⟩ => ⟨S80x441x64, .f32⟩
  | .hbm, ⟨7, _⟩ => ⟨S80x25, .f32⟩
  | .hbm, ⟨8, _⟩ => ⟨S75x25, .f32⟩
  | .local _ .vmem, ⟨0, _⟩ => ⟨S16x441x64, .f32⟩
  | .local _ .vmem, ⟨1, _⟩ => ⟨S16x441x64, .f32⟩
  | .local _ .vmem, ⟨2, _⟩ => ⟨S25x441x64, .f32⟩
  | .local _ .vmem, ⟨3, _⟩ => ⟨S16x25, .f32⟩
  | .local _ .vmem, ⟨4, _⟩ => ⟨S16x25, .f32⟩
  | _, _ => ⟨S75x441x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![5], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x441x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S25x441x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16x25 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S1x5x5x441x64_S5x5x441x64 : S1x5x5x441x64.ShapeCasts S5x5x441x64
  shapeCasts_S5x5x441x64_S25x441x64 : S5x5x441x64.ShapeCasts S25x441x64
  pads_S75x441x64_S80x441x64_050_000_000 : S75x441x64.Pads (![0, 0, 0] : Fin 3 → Nat) ![5, 0, 0] ![0, 0, 0] S80x441x64
  h_S_ : 0 < S_.numel
  inb_S16x441x64_S16x441x64_0_0_0 : ∀ a, (![0, 0, 0] : Fin 3 → Nat) a + S16x441x64.size a ≤ S16x441x64.size a
  h_S16x441x64 : 0 < S16x441x64.numel
  shapeCasts_S16x441x64_S16x441x64 : S16x441x64.ShapeCasts S16x441x64
  reduces_S16x441x64_S16x441 : S16x441x64.Reduces [2] S16x441
  shapeCasts_S16x441_S16x441x1 : S16x441.ShapeCasts S16x441x1
  broadcasts_S16x441x1_S16x441x64 : S16x441x1.Broadcasts S16x441x64
  reduces_S16x441x64_S16x64 : S16x441x64.Reduces [1] S16x64
  inb_S25x441x64_S25x441x64_0_0_0 : ∀ a, (![0, 0, 0] : Fin 3 → Nat) a + S25x441x64.size a ≤ S25x441x64.size a
  h_S25x441x64 : 0 < S25x441x64.numel
  shapeCasts_S25x441x64_S25x441x64 : S25x441x64.ShapeCasts S25x441x64
  reduces_S25x441x64_S25x441 : S25x441x64.Reduces [2] S25x441
  shapeCasts_S25x441_S25x441x1 : S25x441.ShapeCasts S25x441x1
  broadcasts_S25x441x1_S25x441x64 : S25x441x1.Broadcasts S25x441x64
  reduces_S25x441x64_S25x64 : S25x441x64.Reduces [1] S25x64
  bitsLt_bf16_f32 : FTy.bits .bf16 < FTy.bits .f32
  transposes_S25x64_p1_0_S64x25 : S25x64.Transposes [1, 0] S64x25
  inb_S16x25_S16x25_0_0 : ∀ a, (![0, 0] : Fin 2 → Nat) a + S16x25.size a ≤ S16x25.size a
  h_S16x25 : 0 < S16x25.numel
  slices_S80x25_S75x25_0_0 : S80x25.Slices ![0, 0] S75x25
  dot_S16x64_S64x25_S16x25_1_0_0_1_n_n_wf : DotDims.WF S16x64 S64x25 S16x25 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x441x64.size a ≤ S80x441x64.size a
  hwx0_0 : ∀ i : grid0.Coords, EltTy.bits .f32 = 32 ∨ (Rect.block (s := S80x441x64) S16x441x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S25x441x64.size a ≤ S25x441x64.size a
  hwx0_1 : ∀ i : grid0.Coords, EltTy.bits .f32 = 32 ∨ (Rect.block (s := S25x441x64) S25x441x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x25.size a ≤ S80x25.size a
  hwx0_2 : ∀ i : grid0.Coords, EltTy.bits .f32 = 32 ∨ (Rect.block (s := S80x25) S16x25.size (cc0_transform_2 i) (hinb0_2 i)).WholeWords (EltTy.packing .f32)

variable [Facts₀]

def dot_S16x64_S64x25_S16x25_1_0_0_1_n_n : DotDims S16x64 S64x25 S16x25 where
  lhsContracting := [1]
  rhsContracting := [0]
  lhsNonContracting := [0]
  rhsNonContracting := [1]
  lhsBatch := []
  rhsBatch := []
  wf := dot_S16x64_S64x25_S16x25_1_0_0_1_n_n_wf

abbrev win0_0 : Pipeline.Window sig grid0 :=
  Pipeline.Window.ofSpec (Memref.whole main_v2) S16x441x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S25x441x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S16x25.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S75x441x64 : Shape := ⟨3, ![75, 441, 64]⟩
abbrev S1x5x5x441x64 : Shape := ⟨5, ![1, 5, 5, 441, 64]⟩
abbrev S5x5x441x64 : Shape := ⟨4, ![5, 5, 441, 64]⟩
abbrev S25x441x64 : Shape := ⟨3, ![25, 441, 64]⟩
abbrev S_ : Shape := ⟨0, ![]⟩
abbrev S75x441 : Shape := ⟨2, ![75, 441]⟩
abbrev S75x441x1 : Shape := ⟨3, ![75, 441, 1]⟩
abbrev S25x441 : Shape := ⟨2, ![25, 441]⟩
abbrev S25x441x1 : Shape := ⟨3, ![25, 441, 1]⟩
abbrev S75x64 : Shape := ⟨2, ![75, 64]⟩
abbrev S25x64 : Shape := ⟨2, ![25, 64]⟩
abbrev S75x25 : Shape := ⟨2, ![75, 25]⟩

abbrev nBuf : Space → Nat
  | .hbm => 23
  | .vmem => 0
  | .smem => 0
  | _ => 0

abbrev bufTy : (tb : Table) → Fin (tcTables nBuf tb) → BufTy
  | .hbm, ⟨0, _⟩ => ⟨S75x441x64, .f32⟩
  | .hbm, ⟨1, _⟩ => ⟨S1x5x5x441x64, .f32⟩
  | .hbm, ⟨2, _⟩ => ⟨S5x5x441x64, .f32⟩
  | .hbm, ⟨3, _⟩ => ⟨S25x441x64, .f32⟩
  | .hbm, ⟨4, _⟩ => ⟨S75x441x64, .f32⟩
  | .hbm, ⟨5, _⟩ => ⟨S_, .f32⟩
  | .hbm, ⟨6, _⟩ => ⟨S75x441, .f32⟩
  | .hbm, ⟨7, _⟩ => ⟨S75x441x1, .f32⟩
  | .hbm, ⟨8, _⟩ => ⟨S75x441x1, .f32⟩
  | .hbm, ⟨9, _⟩ => ⟨S25x441x64, .f32⟩
  | .hbm, ⟨10, _⟩ => ⟨S_, .f32⟩
  | .hbm, ⟨11, _⟩ => ⟨S25x441, .f32⟩
  | .hbm, ⟨12, _⟩ => ⟨S25x441x1, .f32⟩
  | .hbm, ⟨13, _⟩ => ⟨S25x441x1, .f32⟩
  | .hbm, ⟨14, _⟩ => ⟨S75x441x64, .f32⟩
  | .hbm, ⟨15, _⟩ => ⟨S75x441x64, .f32⟩
  | .hbm, ⟨16, _⟩ => ⟨S_, .f32⟩
  | .hbm, ⟨17, _⟩ => ⟨S75x64, .f32⟩
  | .hbm, ⟨18, _⟩ => ⟨S25x441x64, .f32⟩
  | .hbm, ⟨19, _⟩ => ⟨S25x441x64, .f32⟩
  | .hbm, ⟨20, _⟩ => ⟨S_, .f32⟩
  | .hbm, ⟨21, _⟩ => ⟨S25x64, .f32⟩
  | .hbm, ⟨22, _⟩ => ⟨S75x25, .f32⟩
  | _, _ => ⟨S75x441x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v2 : Ref sig .tc := ⟨.hbm, 8, rfl⟩
abbrev main_call1_v0 : Ref sig .tc := ⟨.hbm, 9, rfl⟩
abbrev main_call1_cst : Ref sig .tc := ⟨.hbm, 10, rfl⟩
abbrev main_call1_v1 : Ref sig .tc := ⟨.hbm, 11, rfl⟩
abbrev main_call1_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩

abbrev nD : Nat := 1
abbrev τ : Topo := Topo.v7x

variable {F : FTy → Type} [FloatOps F]

class Facts₀ : Prop where
  shapeCasts_S1x5x5x441x64_S5x5x441x64 : S1x5x5x441x64.ShapeCasts S5x5x441x64
  shapeCasts_S5x5x441x64_S25x441x64 : S5x5x441x64.ShapeCasts S25x441x64
  reducesTo_S75x441x64_S75x441_d2 : S75x441x64.ReducesTo [2] S75x441
  h_S_ : 0 < S_.numel
  bcast_S75x441_S75x441x1_0_1 : S75x441.BroadcastsInDim S75x441x1 (![0, 1] : Fin 2 → Fin S75x441x1.rank)
  reducesTo_S25x441x64_S25x441_d2 : S25x441x64.ReducesTo [2] S25x441
  bcast_S25x441_S25x441x1_0_1 : S25x441.BroadcastsInDim S25x441x1 (![0, 1] : Fin 2 → Fin S25x441x1.rank)
  bcast_S75x441x1_S75x441x64_0_1_2 : S75x441x1.BroadcastsInDim S75x441x64 (![0, 1, 2] : Fin 3 → Fin S75x441x64.rank)
  reducesTo_S75x441x64_S75x64_d1 : S75x441x64.ReducesTo [1] S75x64
  bcast_S25x441x1_S25x441x64_0_1_2 : S25x441x1.BroadcastsInDim S25x441x64 (![0, 1, 2] : Fin 3 → Fin S25x441x64.rank)
  reducesTo_S25x441x64_S25x64_d1 : S25x441x64.ReducesTo [1] S25x64
  dot_S75x64_S25x64_S75x25_1_1_0_0_n_n_wf : DotDims.WF S75x64 S25x64 S75x25 [1] [1] [0] [0] [] []

variable [Facts₀]

def dot_S75x64_S25x64_S75x25_1_1_0_0_n_n : DotDims S75x64 S25x64 S75x25 where
  lhsContracting := [1]
  rhsContracting := [1]
  lhsNonContracting := [0]
  rhsNonContracting := [0]
  lhsBatch := []
  rhsBatch := []
  wf := dot_S75x64_S25x64_S75x25_1_1_0_0_n_n_wf

class Facts : Prop extends Facts₀ where

variable [Facts]
-- ==== Proof.LibBnQuot.lean ====
import Idealize.ShloMosaic.PureOps.Ideal
import Idealize.ShloMosaic.PureOps.Ideal.Laws

/-!
# Quotient by a square root versus product with a reciprocal square root, on extended reals

General facts about the exact extended-real operations: for a positive argument the product with
the reciprocal square root equals the quotient by the square root; the neutral-element laws of
addition and subtraction in the shapes a rewriting step meets them; and the "not equal"
comparison of a value with itself.
-/

namespace Cert.LibBnQuot

open Idealize.ShloMosaic

/-- For `0 < y`, multiplying by the reciprocal square root of `y` is dividing by its square root.
    At `y = ⊤` both sides are `A * 0` (the square root is `⊤`, whose inverse is `0`, and the
    reciprocal square root is `0`); at a positive real `r` the square root is a nonzero real and
    both sides are `A * (√r)⁻¹`. -/
theorem mul_rsqrt_eq_div_sqrt {y : EReal} (hy : 0 < y) (A : EReal) :
    A * Ideal.rsqrt y = Ideal.div A (Ideal.sqrt y) := by
  induction y using EReal.rec with
  | bot => exact absurd hy (by simp)
  | top =>
    rw [Ideal.rsqrt_top, Ideal.sqrt_top, Ideal.div, if_neg (by simp), EReal.inv_top]
  | coe r =>
    have hr : 0 < r := by exact_mod_cast hy
    have hs : Real.sqrt r ≠ 0 := (Real.sqrt_pos.mpr hr).ne'
    rw [Ideal.rsqrt_coe, Ideal.sqrt_coe, if_neg (not_lt.mpr hr.le), if_neg hr.ne',
      if_neg (not_lt.mpr hr.le), Ideal.div_coe hs, one_div]

/-- Subtracting from zero is negation. -/
theorem zero_sub_eq_neg (a : EReal) : (0 : EReal) - a = -a := zero_sub a

/-- Subtracting zero changes nothing. -/
theorem sub_zero_eq (a : EReal) : a - 0 = a := sub_zero a

/-- Adding zero on the right changes nothing. -/
theorem add_zero_eq (a : EReal) : a + 0 = a := add_zero a

/-- Adding zero on the left changes nothing. -/
theorem zero_add_eq (a : EReal) : 0 + a = a := zero_add a

/-- The ordered "not equal" comparison of a value with itself is false. -/
theorem cmp_one_self (x : EReal) : Ideal.cmp .one x x = 0#1 := by
  simp [Ideal.cmp]

/-- The unordered "not equal" comparison of a value with itself is false. -/
theorem cmp_une_self (x : EReal) : Ideal.cmp .une x x = 0#1 := by
  simp [Ideal.cmp]

end Cert.LibBnQuot
-- ==== Proof.RowCosine.lean ====
import Idealize.ShloMosaic.PureOps.Ideal
import Idealize.ShloMosaic.Lib.ValueIdx
import proofs.«117740_j12927851560966_2_alg».proof.Proof.LibBnQuot

/-!
# Sums of L2-normalised rows, and their inner products

An array `x` of shape [A, J, C] is A slabs of J rows of length C. Slab `a` is the matrix `(j, c) ↦ x (a, j, c)`.
For a slab `r`:

* `sqNorm r j = Σ_c r j c · r j c` is the squared L2 norm of row `j`;
* `unitRowSum r c = Σ_j r j c · rsqrt (sqNorm r j)` is entry `c` of the sum of the rows, each scaled to unit length by
  the reciprocal square root of its squared norm;
* `unitRowSumQuot r c = 0 + Σ_j r j c / sqrt (0 + sqNorm r j)` is the same sum with each row divided by its norm, both
  sums started from zero.

The two agree when every row has a positive squared norm (`unitRowSumQuot_eq`): for `0 < y`, `a · rsqrt y = a / sqrt y`
on the extended reals, also at `y = ⊤` where both are `a · 0`; no finiteness of the entries is needed. At `y = 0` they
differ (`0 · ⊤ = 0` against `0 / 0 = ⊥`), which is why positivity is assumed.

`cosine q s = Σ_k unitRowSum q k · unitRowSum s k` is the inner product of two such sums, and `cosineTable x s` the
[A, B] table of them over the slabs of `x` and of `s`.
-/

noncomputable section

namespace Cert.RowCosine

open Idealize.ShloMosaic Idealize.ShloMosaic.ValueIdx

variable {A B J C : Nat}

/-- Slab `a` of an [A, J, C] array: its J rows of length C. -/
def slab (x : (⟨3, ![A, J, C]⟩ : Shape).Idx → EReal) (a : Fin A) : Fin J → Fin C → EReal :=
  fun j c => x (ix3 a j c)

/-- The squared L2 norm of row `j` of a slab. -/
def sqNorm (r : Fin J → Fin C → EReal) (j : Fin J) : EReal := ∑ c : Fin C, r j c * r j c

/-- Entry `c` of the sum of a slab's rows, each scaled by the reciprocal square root of its squared norm. -/
def unitRowSum (r : Fin J → Fin C → EReal) (c : Fin C) : EReal := ∑ j : Fin J, r j c * Ideal.rsqrt (sqNorm r j)

/-- The same sum with each row divided by the square root of its squared norm, both sums started from zero. -/
def unitRowSumQuot (r : Fin J → Fin C → EReal) (c : Fin C) : EReal :=
  0 + ∑ j : Fin J, Ideal.div (r j c) (Ideal.sqrt (0 + sqNorm r j))

/-- Where every row has a positive squared norm, dividing by the norm is scaling by its reciprocal. -/
theorem unitRowSumQuot_eq (r : Fin J → Fin C → EReal) (h : ∀ j, 0 < sqNorm r j) (c : Fin C) :
    unitRowSumQuot r c = unitRowSum r c := by
  unfold unitRowSumQuot unitRowSum
  rw [zero_add]
  refine Finset.sum_congr rfl fun j _ => ?_
  rw [zero_add]
  exact (Cert.LibBnQuot.mul_rsqrt_eq_div_sqrt (h j) (r j c)).symm

/-- The inner product of the unit-row sums of two slabs. -/
def cosine (q s : Fin J → Fin C → EReal) : EReal := ∑ k : Fin C, unitRowSum q k * unitRowSum s k

/-- The [A, B] table of those inner products, over the slabs of `x` and the slabs of `s`. -/
def cosineTable (x : (⟨3, ![A, J, C]⟩ : Shape).Idx → EReal) (s : (⟨3, ![B, J, C]⟩ : Shape).Idx → EReal) :
    (⟨2, ![A, B]⟩ : Shape).Idx → EReal :=
  fun i => cosine (slab x (i 0)) (slab s (i 1))

theorem cosineTable_ix2 (x : (⟨3, ![A, J, C]⟩ : Shape).Idx → EReal) (s : (⟨3, ![B, J, C]⟩ : Shape).Idx → EReal)
    (a : Fin A) (b : Fin B) : cosineTable x s (ix2 a b) = cosine (slab x a) (slab s b) := rfl

end Cert.RowCosine

end
-- ==== Proof.UnitRowSumVec.lean ====
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout
import proofs.«117740_j12927851560966_2_alg».proof.Proof.RowCosine

/-!
# The unit-row sums as a chain of vector operations

For a block `x` of shape [A, 441, 64]: square it, sum the squares along the last axis (one squared norm per row),
keep that axis as a unit axis, take the reciprocal square root, broadcast it back along the last axis, multiply the
block by it, and sum along the middle axis. Read at `(a, k)` the result is `unitRowSum (slab x a) k`:
`Σ_j x (a, j, k) · rsqrt (Σ_c x (a, j, c)²)`. The leading extent `A` is arbitrary.
-/

noncomputable section

namespace Cert.RowCosine

open Idealize.ShloMosaic Idealize.ShloMosaic.ValueIdx

variable {A : Nat}

/-- The chain of vector operations, over the shape relations each operation takes. -/
def unitRowSumVec (x : FVec Ideal ⟨3, ![A, 441, 64]⟩ .f32)
    (hc : (⟨3, ![A, 441, 64]⟩ : Shape).ShapeCasts ⟨3, ![A, 441, 64]⟩)
    (h2 : (⟨3, ![A, 441, 64]⟩ : Shape).Reduces [2] ⟨2, ![A, 441]⟩)
    (hk : (⟨2, ![A, 441]⟩ : Shape).ShapeCasts ⟨3, ![A, 441, 1]⟩)
    (hb : (⟨3, ![A, 441, 1]⟩ : Shape).Broadcasts ⟨3, ![A, 441, 64]⟩)
    (h1 : (⟨3, ![A, 441, 64]⟩ : Shape).Reduces [1] ⟨2, ![A, 64]⟩) : FVec Ideal ⟨2, ![A, 64]⟩ .f32 :=
  multiReduction .add [1] ⟨2, ![A, 64]⟩
    (mulf (shapeCast ⟨3, ![A, 441, 64]⟩ x hc)
      (broadcastTo ⟨3, ![A, 441, 64]⟩
        (rsqrt (shapeCast ⟨3, ![A, 441, 1]⟩
          (multiReduction .add [2] ⟨2, ![A, 441]⟩
            (mulf (shapeCast ⟨3, ![A, 441, 64]⟩ x hc) (shapeCast ⟨3, ![A, 441, 64]⟩ x hc))
            0x00000000#32 h2 (.inl rfl) rfl) hk)) hb))
    0x00000000#32 h1 (.inl rfl) rfl

/-- Read at `(a, k)`: the sum over the rows `j` of slab `a` of entry `k` of the row scaled to unit length. -/
theorem unitRowSumVec_apply (x : FVec Ideal ⟨3, ![A, 441, 64]⟩ .f32)
    (hc : (⟨3, ![A, 441, 64]⟩ : Shape).ShapeCasts ⟨3, ![A, 441, 64]⟩)
    (h2 : (⟨3, ![A, 441, 64]⟩ : Shape).Reduces [2] ⟨2, ![A, 441]⟩)
    (hk : (⟨2, ![A, 441]⟩ : Shape).ShapeCasts ⟨3, ![A, 441, 1]⟩)
    (hb : (⟨3, ![A, 441, 1]⟩ : Shape).Broadcasts ⟨3, ![A, 441, 64]⟩)
    (h1 : (⟨3, ![A, 441, 64]⟩ : Shape).Reduces [1] ⟨2, ![A, 64]⟩) (a : Fin A) (k : Fin 64) :
    unitRowSumVec x hc h2 hk hb h1 (ix2 a k) = unitRowSum (slab x a) k := by
  unfold unitRowSumVec
  rw [shapeCast_self x hc]
  -- the sum along the middle axis
  refine (Ideal.multiReduction_add_single _ 0x00000000#32 h1 (.inl rfl) rfl (ix2 a k)).trans ?_
  show ∑ j : Fin 441, _ = ∑ j : Fin 441, _
  refine Finset.sum_congr rfl fun j _ => ?_
  have e1 : h1.lift (ix2 a k) j = ix3 a j k :=
    funext fun d => Fin.ext (by match d with | ⟨0, _⟩ => rfl | ⟨1, _⟩ => rfl | ⟨2, _⟩ => rfl)
  rw [e1]
  show x (ix3 a j k) * broadcastTo ⟨3, ![A, 441, 64]⟩ _ hb (ix3 a j k) = slab x a j k * Ideal.rsqrt (sqNorm (slab x a) j)
  -- the broadcast along the last axis reads the unit axis at 0
  rw [broadcastTo_apply _ hb (ix3 a j k) (ix3 a j (0 : Fin 1)) (fun ax => by
    match ax with
    | ⟨0, _⟩ =>
      show a.val = if A = 1 then 0 else a.val
      split
      · have := a.isLt; omega
      · rfl
    | ⟨1, _⟩ => rfl
    | ⟨2, _⟩ => rfl)]
  show x (ix3 a j k) * Ideal.rsqrt (shapeCast ⟨3, ![A, 441, 1]⟩ _ hk (ix3 a j (0 : Fin 1))) = _
  -- the kept unit axis: (a, j, 0) and (a, j) have one row-major position
  rw [shapeCast_apply _ hk (ix3 a j (0 : Fin 1)) (ix2 a j) (by
    rw [Shape.rowMajor_val_two, Shape.rowMajor_val_three]
    show a.val * 441 + j.val = (a.val * 441 + j.val) * 1 + 0
    omega)]
  refine congrArg (fun t => x (ix3 a j k) * Ideal.rsqrt t) ?_
  -- the sum of squares along the last axis
  refine (Ideal.multiReduction_add_single _ 0x00000000#32 h2 (.inl rfl) rfl (ix2 a j)).trans ?_
  show ∑ c : Fin 64, _ = ∑ c : Fin 64, _
  refine Finset.sum_congr rfl fun c _ => ?_
  have e2 : h2.lift (ix2 a j) c = ix3 a j c :=
    funext fun d => Fin.ext (by match d with | ⟨0, _⟩ => rfl | ⟨1, _⟩ => rfl | ⟨2, _⟩ => rfl)
  rw [e2]
  rfl

end Cert.RowCosine

end
-- ==== Proof.KernelBody.lean ====
import proofs.«117740_j12927851560966_2_alg».proof.Proof.Gen.KernelIdeal.Skeleton
import proofs.«117740_j12927851560966_2_alg».proof.Proof.UnitRowSumVec

/-!
# What the kernel body stores, read at an index

The body loads a [16, 441, 64] block of queries and the whole [25, 441, 64] support, takes the unit-row sums of both
(a [16, 64] and a [25, 64] matrix), transposes the second, and multiplies them into a zero accumulator. The changes of
float format on the way into the product are the identity on extended reals. So the stored [16, 25] block at `(p, b)`
is `Σ_k unitRowSum (query slab p) k · unitRowSum (support slab b) k`: the inner product `cosine`.
-/

noncomputable section

namespace Cert.KernelIdeal.Body

open Idealize.ShloMosaic Idealize.ShloMosaic.ValueIdx Cert.KernelIdeal Cert.KernelIdeal.Gen Cert.RowCosine

/-- The body's stored value is the product of the two unit-row-sum matrices, the second transposed. -/
theorem pay_eq (v0 : Vec Ideal S16x441x64 .f32) (v9 : Vec Ideal S25x441x64 .f32) :
    k0_pay1 (F := Ideal) v0 v9
      = matmul dot_S16x64_S64x25_S16x25_1_0_0_1_n_n none
          (truncf .bf16 (unitRowSumVec (A := 16) v0 shapeCasts_S16x441x64_S16x441x64 reduces_S16x441x64_S16x441
            shapeCasts_S16x441_S16x441x1 broadcasts_S16x441x1_S16x441x64 reduces_S16x441x64_S16x64) bitsLt_bf16_f32)
          (transpose S64x25 [1, 0]
            (truncf .bf16 (unitRowSumVec (A := 25) v9 shapeCasts_S25x441x64_S25x441x64 reduces_S25x441x64_S25x441
              shapeCasts_S25x441_S25x441x1 broadcasts_S25x441x1_S25x441x64 reduces_S25x441x64_S25x64) bitsLt_bf16_f32)
            transposes_S25x64_p1_0_S64x25)
          (constant S16x25 .f32 0x00000000#32) := rfl

/-- The left operand's row coordinate is the result's row. -/
theorem lhs_row (i : S16x25.Idx) (q : dot_S16x64_S64x25_S16x25_1_0_0_1_n_n.contr.Idx) :
    (dot_S16x64_S64x25_S16x25_1_0_0_1_n_n.lhsIdx i q 0).val = (i 0).val := by
  unfold DotDims.lhsIdx
  rw [dif_neg (show ¬(0 : Fin S16x64.rank) ∈ dot_S16x64_S64x25_S16x25_1_0_0_1_n_n.lhsBatch by decide),
    dif_pos (show (0 : Fin S16x64.rank) ∈ dot_S16x64_S64x25_S16x25_1_0_0_1_n_n.lhsNonContracting by decide)]
  rfl
/-- The left operand's column coordinate is the contraction position. -/
theorem lhs_col (i : S16x25.Idx) (q : dot_S16x64_S64x25_S16x25_1_0_0_1_n_n.contr.Idx) :
    (dot_S16x64_S64x25_S16x25_1_0_0_1_n_n.lhsIdx i q 1).val = (q ⟨0, by decide⟩).val :=
  dot_S16x64_S64x25_S16x25_1_0_0_1_n_n.lhsIdx_val_of_single rfl i q
/-- The right operand's row coordinate is the contraction position. -/
theorem rhs_row (i : S16x25.Idx) (q : dot_S16x64_S64x25_S16x25_1_0_0_1_n_n.contr.Idx) :
    (dot_S16x64_S64x25_S16x25_1_0_0_1_n_n.rhsIdx i q 0).val = (q ⟨0, by decide⟩).val :=
  dot_S16x64_S64x25_S16x25_1_0_0_1_n_n.rhsIdx_val_of_single rfl i q
/-- The right operand's column coordinate is the result's column. -/
theorem rhs_col (i : S16x25.Idx) (q : dot_S16x64_S64x25_S16x25_1_0_0_1_n_n.contr.Idx) :
    (dot_S16x64_S64x25_S16x25_1_0_0_1_n_n.rhsIdx i q 1).val = (i 1).val := by
  unfold DotDims.rhsIdx
  rw [dif_neg (show ¬(1 : Fin S64x25.rank) ∈ dot_S16x64_S64x25_S16x25_1_0_0_1_n_n.rhsBatch by decide),
    dif_pos (show (1 : Fin S64x25.rank) ∈ dot_S16x64_S64x25_S16x25_1_0_0_1_n_n.rhsNonContracting by decide)]
  rfl

/-- The product's left operand is read at `(p, k)` and its right operand at `(k, b)`, for contraction position `k`. -/
theorem dot_idx (p : Fin 16) (b : Fin 25) (k : Fin 64) :
    dot_S16x64_S64x25_S16x25_1_0_0_1_n_n.lhsIdx (ix2 p b)
        ((contrEquiv1 dot_S16x64_S64x25_S16x25_1_0_0_1_n_n 64 rfl rfl).symm k) = ix2 p k
    ∧ dot_S16x64_S64x25_S16x25_1_0_0_1_n_n.rhsIdx (ix2 p b)
        ((contrEquiv1 dot_S16x64_S64x25_S16x25_1_0_0_1_n_n 64 rfl rfl).symm k) = ix2 k b := by
  have hk := contrEquiv1_symm_val dot_S16x64_S64x25_S16x25_1_0_0_1_n_n 64 rfl rfl k
  constructor
  · funext ax; apply Fin.ext
    match ax with
    | ⟨0, _⟩ => exact lhs_row _ _
    | ⟨1, _⟩ => exact (lhs_col _ _).trans hk
  · funext ax; apply Fin.ext
    match ax with
    | ⟨0, _⟩ => exact (rhs_row _ _).trans hk
    | ⟨1, _⟩ => exact rhs_col _ _

/-- The stored block at `(p, b)` is the inner product of the unit-row sums of query slab `p` and support slab `b`. -/
theorem pay_apply (v0 : Vec Ideal S16x441x64 .f32) (v9 : Vec Ideal S25x441x64 .f32) (p : Fin 16) (b : Fin 25) :
    k0_pay1 (F := Ideal) v0 v9 (ix2 p b) = cosine (slab (A := 16) (J := 441) (C := 64) v0 p) (slab (A := 25) (J := 441) (C := 64) v9 b) := by
  rw [pay_eq]
  refine (Ideal.matmul_constant_zero_apply dot_S16x64_S64x25_S16x25_1_0_0_1_n_n none _ _ (ix2 p b)).trans ?_
  rw [← Equiv.sum_comp (contrEquiv1 dot_S16x64_S64x25_S16x25_1_0_0_1_n_n 64 rfl rfl).symm]
  unfold cosine
  refine Finset.sum_congr rfl fun k _ => ?_
  rw [(dot_idx p b k).1, (dot_idx p b k).2]
  show unitRowSumVec (A := 16) v0 _ _ _ _ _ (ix2 p k) * transpose S64x25 [1, 0] _ transposes_S25x64_p1_0_S64x25 (ix2 k b) = _
  rw [transpose_ix2_apply _ transposes_S25x64_p1_0_S64x25 k b]
  show unitRowSumVec (A := 16) v0 _ _ _ _ _ (ix2 p k) * unitRowSumVec (A := 25) v9 _ _ _ _ _ (ix2 b k) = _
  rw [unitRowSumVec_apply, unitRowSumVec_apply]

end Cert.KernelIdeal.Body

end
-- ==== Proof.KernelValue.lean ====
import proofs.«117740_j12927851560966_2_alg».proof.Proof.Gen.KernelIdeal.Frame
import proofs.«117740_j12927851560966_2_alg».proof.Proof.KernelBody
import Idealize.ShloMosaic.Lib.Pipeline.Value
import Idealize.ShloMosaic.Lib.ValueIdx
import Idealize.ShloMosaic.Lib.ValueLayout
import Idealize.ShloMosaic.Lib.StableHlo.Run

/-!
# The kernel's result array

The program pads the queries from 75 to 80 slabs (the five new slabs filled with ones), reads the second argument as
the [25, 441, 64] support, and runs the body at five grid points: point `t` takes query slabs 16t … 16t+15 and the
whole support and writes rows 16t … 16t+15 of an [80, 25] array. Its result is the first 75 rows of that array.

* Point `t`'s block is rows 16t … 16t+15 of ONE table: `cosineTable` of the padded queries and the support
  (`block_eq`), because the body's entry `(p, b)` depends on query slab `p` of the block, which is slab 16t+p of the
  padded array, and on support slab `b`.
* The five blocks cover the [80, 25] array (row `r` is in block `r / 16`), so the array ends as that table.
* Row `a < 75` of the padded queries is row `a` of the queries, so the first 75 rows are `cosineTable` of the queries
  and the support themselves: the padding never reaches the result.
-/

noncomputable section

namespace Cert.KernelIdeal.KValue

open Cert.KernelIdeal Cert.KernelIdeal.Gen Idealize.ShloMosaic Idealize.ShloMosaic.TcCoe Idealize.SL.Sem
open Idealize.ShloMosaic.ValueIdx Idealize.ShloMosaic.StableHlo Cert.RowCosine
open Idealize.ShloMosaic.Pipeline (Dat)

variable (m : (ℓ : Loc nD τ sig) → Buf (Elt Ideal) ℓ) (ρ : Dev nD → PrngReg)

/-! ## The arrays the region finds -/

/-- The support: the second argument's [1, 5, 5, 441, 64] entries in row-major order as [25, 441, 64]. -/
abbrev support (x1 : S1x5x5x441x64.Idx → EReal) : S25x441x64.Idx → EReal :=
  shapeCast S25x441x64 (shapeCast S5x5x441x64 x1 shapeCasts_S1x5x5x441x64_S5x5x441x64) shapeCasts_S5x5x441x64_S25x441x64

/-- The queries padded with five slabs of ones. -/
abbrev padded (x0 : S75x441x64.Idx → EReal) : S80x441x64.Idx → EReal :=
  pad S80x441x64 ![0, 0, 0] ![5, 0, 0] ![0, 0, 0] x0 (constant (F := Ideal) S_ .f32 0x3F800000#32)
    pads_S75x441x64_S80x441x64_050_000_000 h_S_

/-- Window 1's array when the region starts is the support. -/
theorem V_support (c : Dev nD) :
    (V m c main_v1 : S25x441x64.Idx → EReal) = support (m ((c : Thread nD τ).loc main_arg1)) := by
  dsimp only [V, V0]
  simp only [hostOps0, hostOps0_1, List.flatten_cons, List.flatten_nil, List.append_nil, List.cons_append, List.nil_append]
  after_results
  rfl

/-- Window 0's array when the region starts is the padded queries. -/
theorem V_padded (c : Dev nD) :
    (V m c main_v2 : S80x441x64.Idx → EReal) = padded (m ((c : Thread nD τ).loc main_arg0)) := by
  dsimp only [V, V0]
  simp only [hostOps0, hostOps0_1, List.flatten_cons, List.flatten_nil, List.append_nil, List.cons_append, List.nil_append]
  after_results
  rfl

/-- A slab below 75 of the padded queries is that slab of the queries. -/
theorem slab_padded (x0 : S75x441x64.Idx → EReal) (a : Fin 75) (a' : Fin 80) (ha : a'.val = a.val) :
    slab (A := 80) (J := 441) (C := 64) (padded x0) a' = slab (A := 75) (J := 441) (C := 64) x0 a := by
  funext j k
  show pad S80x441x64 ![0, 0, 0] ![5, 0, 0] ![0, 0, 0] x0 (constant (F := Ideal) S_ .f32 0x3F800000#32)
    pads_S75x441x64_S80x441x64_050_000_000 h_S_ (ix3 a' j k) = x0 (ix3 a j k)
  unfold pad
  rw [dif_pos (fun ax => by
    match ax with
    | ⟨0, _⟩ => show 0 ≤ a'.val ∧ (a'.val - 0) % (0 + 1) = 0 ∧ (a'.val - 0) / (0 + 1) < 75; have := a.isLt; omega
    | ⟨1, _⟩ => show 0 ≤ j.val ∧ (j.val - 0) % (0 + 1) = 0 ∧ (j.val - 0) / (0 + 1) < 441; have := j.isLt; omega
    | ⟨2, _⟩ => show 0 ≤ k.val ∧ (k.val - 0) % (0 + 1) = 0 ∧ (k.val - 0) / (0 + 1) < 64; have := k.isLt; omega)]
  refine congrArg x0 (funext fun ax => Fin.ext ?_)
  match ax with
  | ⟨0, _⟩ => show (a'.val - 0) / (0 + 1) = a.val; omega
  | ⟨1, _⟩ => show (j.val - 0) / (0 + 1) = j.val; omega
  | ⟨2, _⟩ => show (k.val - 0) / (0 + 1) = k.val; omega

/-! ## A point's block is a block of one table -/

theorem hz2 : (![0, 0] : Fin 2 → Nat) = fun _ => 0 := funext fun a => by fin_cases a <;> rfl
theorem hz3 : (![0, 0, 0] : Fin 3 → Nat) = fun _ => 0 := funext fun a => by fin_cases a <;> rfl

/-- The printed block indices over the grid: the query window moves with the output window along the slabs and
    stays at 0 elsewhere; the support window never moves; the output window is at row block `t ≤ 4`, column block 0. -/
theorem block_indices : ∀ t : Fin cfg0.N, win0_0.index t (0 : Fin 3) = win0_2.index t (0 : Fin 2)
    ∧ win0_0.index t (1 : Fin 3) = 0 ∧ win0_0.index t (2 : Fin 3) = 0
    ∧ win0_1.index t (0 : Fin 3) = 0 ∧ win0_1.index t (1 : Fin 3) = 0 ∧ win0_1.index t (2 : Fin 3) = 0
    ∧ win0_2.index t (1 : Fin 2) = 0 ∧ win0_2.index t (0 : Fin 2) ≤ 4 :=
  (by decide +kernel : ∀ t : Fin grid0.N, _)

/-- Every row block 0 … 4 is some point's. -/
theorem block_onto : ∀ q0 : Fin 5, ∃ t : Fin cfg0.N, win0_2.index t = ![q0.val, 0] :=
  (by decide +kernel : ∀ q0 : Fin 5, ∃ t : Fin grid0.N, win0_2.index t = ![q0.val, 0])

/-- Query slab `p` of point `t`'s block is the slab of the padded array in the output block's row `p`. -/
theorem query_slab (c : Dev nD) (t : Fin cfg0.N) (p : Fin 16) (b : Fin 25) :
    slab (A := 16) (J := 441) (C := 64) (iblk m c 0 t) p
      = slab (A := 80) (J := 441) (C := 64) (V m c main_v2) ((((cfg0.win 2).blk t).view.emb (ix2 p b)) 0) := by
  funext j k
  show V m c main_v2 (((cfg0.win 0).blk t).view.emb (ix3 p j k)) = V m c main_v2 (ix3 ((((cfg0.win 2).blk t).view.emb (ix2 p b)) 0) j k)
  obtain ⟨e0, e1, e2, -, -, -, -, -⟩ := block_indices t
  refine congrArg (V m c main_v2) (funext fun a => Fin.ext ?_)
  match a with
  | ⟨0, _⟩ => show win0_0.index t (0 : Fin 3) * 16 + 1 * p.val = win0_2.index t (0 : Fin 2) * 16 + 1 * p.val; omega
  | ⟨1, _⟩ => show win0_0.index t (1 : Fin 3) * 441 + 1 * j.val = j.val; omega
  | ⟨2, _⟩ => show win0_0.index t (2 : Fin 3) * 64 + 1 * k.val = k.val; omega

/-- Support slab `b` of point `t`'s block is slab `b` of the support, the output block's column `b`. -/
theorem support_slab (c : Dev nD) (t : Fin cfg0.N) (p : Fin 16) (b : Fin 25) :
    slab (A := 25) (J := 441) (C := 64) (iblk m c 1 t) b
      = slab (A := 25) (J := 441) (C := 64) (V m c main_v1) ((((cfg0.win 2).blk t).view.emb (ix2 p b)) 1) := by
  funext j k
  show V m c main_v1 (((cfg0.win 1).blk t).view.emb (ix3 b j k)) = V m c main_v1 (ix3 ((((cfg0.win 2).blk t).view.emb (ix2 p b)) 1) j k)
  obtain ⟨-, -, -, e3, e4, e5, e6, -⟩ := block_indices t
  refine congrArg (V m c main_v1) (funext fun a => Fin.ext ?_)
  match a with
  | ⟨0, _⟩ => show win0_1.index t (0 : Fin 3) * 25 + 1 * b.val = win0_2.index t (1 : Fin 2) * 25 + 1 * b.val; omega
  | ⟨1, _⟩ => show win0_1.index t (1 : Fin 3) * 441 + 1 * j.val = j.val; omega
  | ⟨2, _⟩ => show win0_1.index t (2 : Fin 3) * 64 + 1 * k.val = k.val; omega

/-- WHAT POINT `t` WRITES BACK is block `t` of the table of the padded queries and the support. -/
theorem block_eq (c : Dev nD) (t : Fin cfg0.N) :
    (dats m 0 c).flushed 2 t = ((cfg0.win 2).blk t).view.read (Elt Ideal)
      (cosineTable (A := 80) (B := 25) (J := 441) (C := 64) (V m c main_v2) (V m c main_v1)) := by
  show (cfg0.win 2).cut (grid0.coords t) ((dats m 0 c).after 2 t) = _
  rw [after0_2]
  unfold out0_2
  rw [View.canon_unit_zero hz2]
  simp only [View.ld_unit_zero (S := S16x441x64) hz3, View.ld_unit_zero (S := S25x441x64) hz3]
  funext y
  obtain ⟨p, b, rfl⟩ : ∃ (p : Fin 16) (b : Fin 25), y = ix2 p b := ⟨y 0, y 1, eq_ix2 y⟩
  refine (Body.pay_apply (iblk m c 0 t) (iblk m c 1 t) p b).trans ?_
  show _ = cosineTable (A := 80) (B := 25) (J := 441) (C := 64) (V m c main_v2) (V m c main_v1) (((cfg0.win 2).blk t).view.emb (ix2 p b))
  unfold cosineTable
  rw [query_slab m c t p b, support_slab m c t p b]

/-! ## The array after the five points -/

/-- An index of the [80, 25] array is in point `t`'s block iff each coordinate is in the block's range on its axis. -/
theorem mem_block (t : Fin cfg0.N) (i : S80x25.Idx) :
    i ∈ ((cfg0.win 2).blk t).view.set ↔ ∀ a : Fin 2, win0_2.index t a * S16x25.size a ≤ (i a).val ∧ (i a).val < win0_2.index t a * S16x25.size a + S16x25.size a := by
  show i ∈ ((View.whole main_v3).slice (win0_2.rect t)).set ↔ _
  rw [View.set_slice_whole, Rect.mem_set_unit]
  exact Iff.rfl

/-- Row `r` is in the block of the point at row block `r / 16`: the blocks cover the array. -/
theorem blocks_cover (i : S80x25.Idx) :
    ∃ t : Fin cfg0.N, (cfg0.win 2).flush t = true ∧ i ∈ ((cfg0.win 2).blk t).view.set := by
  have hi0 : (i 0).val < 80 := (i 0).isLt
  have hi1 : (i 1).val < 25 := (i 1).isLt
  obtain ⟨t, ht⟩ := block_onto ⟨(i 0).val / 16, by omega⟩
  have q0 : win0_2.index t (0 : Fin 2) = (i 0).val / 16 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 16 ≤ (i 0).val ∧ (i 0).val < win0_2.index t (0 : Fin 2) * 16 + 16; omega
  | ⟨1, _⟩ => show win0_2.index t (1 : Fin 2) * 25 ≤ (i 1).val ∧ (i 1).val < win0_2.index t (1 : Fin 2) * 25 + 25; omega

/-- THE [80, 25] ARRAY after the run is the table of the padded queries and the support. -/
theorem array_eq (c : Dev nD) :
    (dats m 0 c).arrAt 2 cfg0.N = cosineTable (A := 80) (B := 25) (J := 441) (C := 64) (V m c main_v2) (V m c main_v1) :=
  (dats m 0 c).arrAt_eq_of_cover 2 _ (fun t _ => block_eq m c t) blocks_cover

/-! ## The result: its first 75 rows -/

/-- The program's result is the table of the queries and the support themselves. -/
theorem result_eq (c : Dev nD) :
    Pipeline.afterTail₀ cfgs (dats m) 0 (V0 m) [hostOps1] c main_v4
      = cosineTable (A := 75) (B := 25) (J := 441) (C := 64) (m ((c : Thread nD τ).loc main_arg0)) (support (m ((c : Thread nD τ).loc main_arg1))) := by
  unfold Pipeline.afterTail₀
  show StableHlo.after hostOps1 _ (Proc.devRef .tc main_v4) = _
  after_results
  rw [(Pipeline.withArrays_arr spec0 launch0.win.arr_inj c _ _ 2).trans (array_eq m c)]
  funext i
  obtain ⟨a, b, rfl⟩ : ∃ (a : Fin 75) (b : Fin 25), i = ix2 a b := ⟨i 0, i 1, eq_ix2 i⟩
  rw [slice2_axis0_eq 0 _ slices_S80x25_S75x25_0_0 a b, cosineTable_ix2, cosineTable_ix2, V_padded, V_support,
    slab_padded _ a _ (by show 0 + a.val = a.val; omega)]

/-- The frame run re-posted: the result array at the table, the arguments unchanged. -/
theorem run : θ_run defs (onTc (τ := τ) (main (F := Ideal))) ⟨m, fun _ => 0, ρ⟩ fun r => ∀ c : Dev nD,
      r.2.mem ((c : Thread nD τ).loc main_v4)
        = cosineTable (A := 75) (B := 25) (J := 441) (C := 64) (m ((c : Thread nD τ).loc main_arg0)) (support (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v4 (Pipeline.mem_restRefs_of main_v4 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.KValue

end
-- ==== Proof.ReferenceValue.lean ====
import proofs.«117740_j12927851560966_2_alg».proof.Proof.Gen.ReferenceIdeal.Read
import proofs.«117740_j12927851560966_2_alg».proof.Proof.RowCosine

/-!
# The reference's result, read at an index

The reference divides every row of the queries and of the support (the second argument read as [25, 441, 64]) by its
L2 norm, the square root of the row's sum of squares, sums the rows of each slab, and contracts the two [·, 64]
matrices over their last axis. Read at `(a, b)` its result is `Σ_k unitRowSumQuot (query slab a) k ·
unitRowSumQuot (support slab b) k`, every host sum started from zero. Where every row has a positive squared norm this
is `cosineTable` of the queries and the support.
-/

noncomputable section

namespace Cert.ReferenceIdeal.RefValue

open Cert.ReferenceIdeal Cert.ReferenceIdeal.Gen Cert.ReferenceIdeal.Read Idealize.ShloMosaic Idealize.ShloMosaic.ValueIdx
open Cert.RowCosine

/-- The zero a host sum starts from. -/
theorem zero_word : Ideal.ofBits .f32 0x00000000#32 = 0 := Ideal.ofBits_zero_f32

/-- A query row divided by its norm, at `(a, j, k)`. -/
theorem q_row_apply (x0 : (⟨S75x441x64, .f32⟩ : BufTy).Contents (Elt Ideal)) (a : Fin 75) (j : Fin 441) (k : Fin 64) :
    val_main_v5 (F := Ideal) x0 (ix3 a j k)
      = Ideal.div (slab (A := 75) (J := 441) (C := 64) x0 a j k) (Ideal.sqrt (0 + sqNorm (slab (A := 75) (J := 441) (C := 64) x0 a) j)) := by
  have e4 : idx_main_v4 (ix3 a j k) = ix3 a j (0 : Fin 1) :=
    funext fun d => Fin.ext (by match d with | ⟨0, _⟩ => rfl | ⟨1, _⟩ => rfl | ⟨2, _⟩ => rfl)
  have e2 : idx_main_call0_v2 (ix3 a j (0 : Fin 1)) = ix2 a j :=
    funext fun d => Fin.ext (by match d with | ⟨0, _⟩ => rfl | ⟨1, _⟩ => rfl)
  rw [val_main_v5_apply, val_main_v4_apply, e4, val_main_v2_apply, val_main_call0_v2_apply, e2, val_main_call0_v1_apply]
  show Ideal.div (x0 (ix3 a j k)) (Ideal.sqrt (Ideal.ofBits .f32 0x00000000#32 + ∑ c : Fin 64, _)) = _
  rw [zero_word]
  refine congrArg (fun t => Ideal.div (x0 (ix3 a j k)) (Ideal.sqrt (0 + t))) ?_
  unfold sqNorm
  refine Finset.sum_congr rfl fun c _ => ?_
  have e1 : idx_main_call0_v1 (ix2 a j) c = ix3 a j c :=
    funext fun d => Fin.ext (by match d with | ⟨0, _⟩ => rfl | ⟨1, _⟩ => rfl | ⟨2, _⟩ => rfl)
  rw [e1]
  rfl

/-- The sum over a query slab's rows of each row divided by its norm, at `(a, k)`. -/
theorem q_apply (x0 : (⟨S75x441x64, .f32⟩ : BufTy).Contents (Elt Ideal)) (a : Fin 75) (k : Fin 64) :
    val_main_v6 (F := Ideal) x0 (ix2 a k) = unitRowSumQuot (slab (A := 75) (J := 441) (C := 64) x0 a) k := by
  rw [val_main_v6_apply]
  show Ideal.ofBits .f32 0x00000000#32 + ∑ j : Fin 441, _ = _
  rw [zero_word]
  unfold unitRowSumQuot
  refine congrArg (0 + ·) (Finset.sum_congr rfl fun j _ => ?_)
  have e : idx_main_v6 (ix2 a k) j = ix3 a j k :=
    funext fun d => Fin.ext (by match d with | ⟨0, _⟩ => rfl | ⟨1, _⟩ => rfl | ⟨2, _⟩ => rfl)
  rw [e]
  exact q_row_apply x0 a j k

/-- A support row divided by its norm, at `(b, j, k)`. -/
theorem s_row_apply (x1 : (⟨S1x5x5x441x64, .f32⟩ : BufTy).Contents (Elt Ideal)) (b : Fin 25) (j : Fin 441) (k : Fin 64) :
    val_main_v8 (F := Ideal) x1 (ix3 b j k)
      = Ideal.div (slab (A := 25) (J := 441) (C := 64) (val_main_v1 (F := Ideal) x1) b j k)
          (Ideal.sqrt (0 + sqNorm (slab (A := 25) (J := 441) (C := 64) (val_main_v1 (F := Ideal) x1) b) j)) := by
  have e7 : idx_main_v7 (ix3 b j k) = ix3 b j (0 : Fin 1) :=
    funext fun d => Fin.ext (by match d with | ⟨0, _⟩ => rfl | ⟨1, _⟩ => rfl | ⟨2, _⟩ => rfl)
  have e2 : idx_main_call1_v2 (ix3 b j (0 : Fin 1)) = ix2 b j :=
    funext fun d => Fin.ext (by match d with | ⟨0, _⟩ => rfl | ⟨1, _⟩ => rfl)
  rw [val_main_v8_apply, val_main_v7_apply, e7, val_main_v3_apply, val_main_call1_v2_apply, e2, val_main_call1_v1_apply]
  show Ideal.div (val_main_v1 (F := Ideal) x1 (ix3 b j k)) (Ideal.sqrt (Ideal.ofBits .f32 0x00000000#32 + ∑ c : Fin 64, _)) = _
  rw [zero_word]
  refine congrArg (fun t => Ideal.div (val_main_v1 (F := Ideal) x1 (ix3 b j k)) (Ideal.sqrt (0 + t))) ?_
  unfold sqNorm
  refine Finset.sum_congr rfl fun c _ => ?_
  have e1 : idx_main_call1_v1 (ix2 b j) c = ix3 b j c :=
    funext fun d => Fin.ext (by match d with | ⟨0, _⟩ => rfl | ⟨1, _⟩ => rfl | ⟨2, _⟩ => rfl)
  rw [e1]
  rfl

/-- The sum over a support slab's rows of each row divided by its norm, at `(b, k)`. -/
theorem s_apply (x1 : (⟨S1x5x5x441x64, .f32⟩ : BufTy).Contents (Elt Ideal)) (b : Fin 25) (k : Fin 64) :
    val_main_v9 (F := Ideal) x1 (ix2 b k)
      = unitRowSumQuot (slab (A := 25) (J := 441) (C := 64) (val_main_v1 (F := Ideal) x1) b) k := by
  rw [val_main_v9_apply]
  show Ideal.ofBits .f32 0x00000000#32 + ∑ j : Fin 441, _ = _
  rw [zero_word]
  unfold unitRowSumQuot
  refine congrArg (0 + ·) (Finset.sum_congr rfl fun j _ => ?_)
  have e : idx_main_v9 (ix2 b k) j = ix3 b j k :=
    funext fun d => Fin.ext (by match d with | ⟨0, _⟩ => rfl | ⟨1, _⟩ => rfl | ⟨2, _⟩ => rfl)
  rw [e]
  exact s_row_apply x1 b j k

/-- Where every query row and every support row has a positive squared norm, the reference's result is the table of
    inner products of the unit-row sums. -/
theorem result_eq (x0 : (⟨S75x441x64, .f32⟩ : BufTy).Contents (Elt Ideal)) (x1 : (⟨S1x5x5x441x64, .f32⟩ : BufTy).Contents (Elt Ideal))
    (hq : ∀ (a : Fin 75) (j : Fin 441), 0 < sqNorm (slab (A := 75) (J := 441) (C := 64) x0 a) j)
    (hs : ∀ (b : Fin 25) (j : Fin 441), 0 < sqNorm (slab (A := 25) (J := 441) (C := 64) (val_main_v1 (F := Ideal) x1) b) j) :
    val_main_v10 (F := Ideal) x0 x1 = cosineTable (A := 75) (B := 25) (J := 441) (C := 64) x0 (val_main_v1 (F := Ideal) x1) := by
  funext i
  obtain ⟨a, b, rfl⟩ : ∃ (a : Fin 75) (b : Fin 25), i = ix2 a b := ⟨i 0, i 1, eq_ix2 i⟩
  rw [val_main_v10_apply, cosineTable_ix2]
  unfold cosine
  refine Finset.sum_congr rfl fun k _ => ?_
  have el : lidx_main_v10 (ix2 a b) k = ix2 a k :=
    funext fun d => Fin.ext (by match d with | ⟨0, _⟩ => rfl | ⟨1, _⟩ => rfl)
  have er : ridx_main_v10 (ix2 a b) k = ix2 b k :=
    funext fun d => Fin.ext (by match d with | ⟨0, _⟩ => rfl | ⟨1, _⟩ => rfl)
  rw [el, er, q_apply, s_apply, unitRowSumQuot_eq _ (hq a), unitRowSumQuot_eq _ (hs b)]

end Cert.ReferenceIdeal.RefValue

end
-- ==== Proof.RowsNonzero.lean ====
import proofs.«117740_j12927851560966_2_alg».proof.Pre_finite_inputs
import proofs.«117740_j12927851560966_2_alg».proof.Proof.Gen.Pre_finite_inputs
import proofs.«117740_j12927851560966_2_alg».proof.Proof.RowCosine
import Idealize.ShloMosaic.Lib.ReduceAll
import Idealize.ShloMosaic.Lib.ValueIdx
import Idealize.ShloMosaic.PureOps.Ideal.Laws

/-!
# The domain: every row has a non-zero norm

The precondition says, besides finiteness of the inputs (not used here), that the sum of squares of every row of the
queries and of every row of the support (the second argument read as [25, 441, 64]) is greater than zero: the
reference divides each row by the square root of that sum. Read back from the printed predicate — a conjunction of
four "all" reductions, the last two over comparisons `0 < Σ_c x²` — this is `0 < sqNorm (slab x a) j` for every slab
`a` and row `j` of both arrays.
-/

noncomputable section

namespace Cert.Pre_finite_inputs.Domain

open Idealize.ShloMosaic Idealize.ShloMosaic.ValueIdx Cert.Pre_finite_inputs Cert.Pre_finite_inputs.Gen Cert.RowCosine

instance : Subsingleton S_.Idx := ⟨fun a b => funext fun d => d.elim0⟩

/-- A "greater than" comparison that answers 1 is the strict order. -/
theorem lt_of_cmp_ogt {x y : EReal} (h : Ideal.cmp .ogt x y = 1#1) : y < x := by
  by_contra hn
  have h' : BitVec.ofBool (decide (y < x)) = 1#1 := h
  rw [decide_eq_false hn] at h'
  exact absurd h' (by decide)

/-- The host's sum of squares along the last axis of an [A, 441, 64] array, started from zero, at `(a, j)`. -/
theorem hostSumSq_apply {A : Nat} (x : FVec Ideal ⟨3, ![A, 441, 64]⟩ .f32)
    (h' : (⟨3, ![A, 441, 64]⟩ : Shape).ReducesTo [2] ⟨2, ![A, 441]⟩) (h : (⟨3, ![A, 441, 64]⟩ : Shape).Reduces [2] ⟨2, ![A, 441]⟩)
    (hu : 0 < S_.numel) (a : Fin A) (j : Fin 441) :
    Host.reduceAdd (F := Ideal) (mulf x x) (constant (F := Ideal) S_ .f32 0x00000000#32) h' hu (ix2 a j)
      = 0 + sqNorm (slab x a) j := by
  simp only [Host.reduceAdd, Ideal.hostReduceAdd_def]
  rw [Ideal.hostReduceAdd_single h' h]
  show Ideal.ofBits .f32 0x00000000#32 + ∑ c : Fin 64, _ = _
  rw [Ideal.ofBits_zero_f32]
  unfold sqNorm
  refine congrArg (0 + ·) (Finset.sum_congr rfl fun c _ => ?_)
  have e : h.lift (ix2 a j) c = ix3 a j c :=
    funext fun d => Fin.ext (by match d with | ⟨0, _⟩ => rfl | ⟨1, _⟩ => rfl | ⟨2, _⟩ => rfl)
  rw [e]
  rfl

/-- Under the precondition every query row and every support row has a positive squared norm. -/
theorem rows_pos (x0 : FVec Ideal S75x441x64 .f32) (x1 : FVec Ideal S1x5x5x441x64 .f32)
    (h : fn (F := Ideal) x0 x1 = fun _ => 1#1) :
    (∀ (a : Fin 75) (j : Fin 441), 0 < sqNorm (slab (A := 75) (J := 441) (C := 64) x0 a) j)
    ∧ (∀ (h1 : S1x5x5x441x64.ShapeCasts S5x5x441x64) (h2 : S5x5x441x64.ShapeCasts S25x441x64) (b : Fin 25) (j : Fin 441),
        0 < sqNorm (slab (A := 25) (J := 441) (C := 64) (shapeCast S25x441x64 (shapeCast S5x5x441x64 x1 h1) h2) b) j) := by
  have h0 := congrFun h ix0
  dsimp only [fn, fn_part1] at h0
  obtain ⟨h123, h4⟩ := IntOp.andi_eq_one.1 h0
  obtain ⟨-, h3⟩ := IntOp.andi_eq_one.1 h123
  constructor
  · intro a j
    have hc := Host.reduce_andi_all _ _ _ _ ix0 h3 (ix2 a j)
    have hlt := lt_of_cmp_ogt hc
    rw [hostSumSq_apply x0 _ (by decide) _ a j, zero_add] at hlt
    exact lt_of_eq_of_lt Ideal.ofBits_zero_f32.symm hlt
  · intro h1 h2 b j
    have hc := Host.reduce_andi_all _ _ _ _ ix0 h4 (ix2 b j)
    have hlt := lt_of_cmp_ogt hc
    rw [hostSumSq_apply _ _ (by decide) _ b j, zero_add] at hlt
    exact lt_of_eq_of_lt Ideal.ofBits_zero_f32.symm hlt

end Cert.Pre_finite_inputs.Domain

end
-- ==== Proof.lean ====
/-
  The kernel computes, for 75 query slabs and 25 support slabs of 441 rows by 64 channels each, the table
  `out[i, b] = Σ_k (Σ_j q[i, j, k] · rsqrt (Σ_c q[i, j, c]²)) · (Σ_j s[b, j, k] · rsqrt (Σ_c s[b, j, c]²))`:
  every row scaled to unit length, the rows of a slab summed, and the two sums contracted over the channels. The
  reference computes the same table with each row DIVIDED by its L2 norm `sqrt (Σ_c ·²)`.

  On the extended reals `a · rsqrt y = a / sqrt y` for every `0 < y` (at `y = ⊤` both sides are `a · 0`), and the two
  differ at `y = 0` (`0 · ⊤ = 0` against `0 / 0`). The precondition states the reference's domain — every row of the
  queries and of the support has a positive sum of squares — and that is the only hypothesis the proof uses: the
  finiteness of the inputs is never opened. Everything else is the same sums in the same order: the change of float
  format on the way into the kernel's matrix product is the identity, the product against a transposed matrix is
  the contraction over the last axes, the host sums start from zero, and the five slabs of ones the kernel pads the
  queries with only reach rows 75 … 79 of the [80, 25] array, which the result drops.

  Modules: `RowCosine` (the table as one function; the law), `UnitRowSumVec` and `KernelBody` (the kernel body read
  at an index), `KernelValue` (the grid's blocks, the padding and the final slice), `ReferenceValue` (the reference
  read at an index), `RowsNonzero` (the precondition read back).
-/
import proofs.«117740_j12927851560966_2_alg».proof.Defs
import proofs.«117740_j12927851560966_2_alg».proof.Proof.Gen.Kernel
import proofs.«117740_j12927851560966_2_alg».proof.Proof.Gen.Kernel.Skeleton
import proofs.«117740_j12927851560966_2_alg».proof.Proof.Gen.Kernel.Launch
import proofs.«117740_j12927851560966_2_alg».proof.Proof.Gen.Kernel.Points
import proofs.«117740_j12927851560966_2_alg».proof.Proof.Gen.Kernel.Frame
import proofs.«117740_j12927851560966_2_alg».proof.Proof.Gen.KernelIdeal
import proofs.«117740_j12927851560966_2_alg».proof.Proof.Gen.KernelIdeal.Skeleton
import proofs.«117740_j12927851560966_2_alg».proof.Proof.Gen.KernelIdeal.Launch
import proofs.«117740_j12927851560966_2_alg».proof.Proof.Gen.KernelIdeal.Points
import proofs.«117740_j12927851560966_2_alg».proof.Proof.Gen.KernelIdeal.Frame
import proofs.«117740_j12927851560966_2_alg».proof.Proof.Gen.ReferenceIdeal
import proofs.«117740_j12927851560966_2_alg».proof.Proof.Gen.Pre_finite_inputs
import proofs.«117740_j12927851560966_2_alg».proof.Proof.Gen.ReferenceIdeal.Run
import proofs.«117740_j12927851560966_2_alg».proof.Proof.Gen.ReferenceIdeal.Read
import proofs.«117740_j12927851560966_2_alg».proof.Proof.KernelValue
import proofs.«117740_j12927851560966_2_alg».proof.Proof.ReferenceValue
import proofs.«117740_j12927851560966_2_alg».proof.Proof.RowsNonzero
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Reading the kernel over the extended reals rewrote no operation. -/
theorem preserves : Cert.preserves_Kernel_KernelIdeal := trivial

/-- Both programs end at the table of inner products of the unit-row sums of the queries and the support: the kernel by
    its blocks, the reference because on the stated domain dividing a row by its norm is scaling it by the reciprocal
    square root of its squared norm. -/
theorem algebraic : Cert.algebraic_KernelIdeal_ReferenceIdeal := by
  intro m ρ m' ρ' hpre hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  obtain ⟨hq, hs⟩ := Cert.Pre_finite_inputs.Domain.rows_pos _ _ (hpre c)
  exact (Cert.ReferenceIdeal.Read.val_main_v10_eq _ _).trans
    (Cert.ReferenceIdeal.RefValue.result_eq _ _ hq (fun b j => hs _ _ b j))

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
